-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x128 : Shape := ⟨3, ![16, 3, 128]⟩
abbrev S16x3x16384 : Shape := ⟨3, ![16, 3, 16384]⟩
abbrev S_ : Shape := ⟨0, ![]⟩

class Facts : Prop where
  bcast_S_S16x3x128 : S_.BroadcastsInDim S16x3x128 (![] : Fin 0 → Fin S16x3x128.rank)
  reducesTo_S16x3x128_S_d0_1_2 : S16x3x128.ReducesTo [0, 1, 2] S_
  h_S_ : 0 < S_.numel
  bcast_S_S16x3x16384 : S_.BroadcastsInDim S16x3x16384 (![] : Fin 0 → Fin S16x3x16384.rank)
  reducesTo_S16x3x16384_S_d0_1_2 : S16x3x16384.ReducesTo [0, 1, 2] S_

variable [Facts]

def fn {F : FTy → Type} [FloatOps F] (main_arg0 : FVec F S16x3x128 .f32) (main_arg1 : FVec F S16x3x16384 .f32) : IVec S_ 1 :=
  let main_v0 : FVec F S16x3x128 .f32 := Host.absf main_arg0
  let main_cst : FVec F S_ .f32 := constant S_ .f32 0x7F800000#32
  let main_v1 : FVec F S16x3x128 .f32 := broadcastInDim S16x3x128 ![] bcast_S_S16x3x128 main_cst
  let main_v2 : IVec S16x3x128 1 := cmpf .olt main_v0 main_v1
  let main_c : IVec S_ 1 := constantI S_ 1 1#1
  let main_v3 : IVec S_ 1 := (fun x v => Host.reduce IntOp.andi x v reducesTo_S16x3x128_S_d0_1_2 h_S_) main_v2 main_c
  let main_v4 : FVec F S16x3x16384 .f32 := Host.absf main_arg1
  let main_cst_0 : FVec F S_ .f32 := constant S_ .f32 0x7F800000#32
  let main_v5 : FVec F S16x3x16384 .f32 := broadcastInDim S16x3x16384 ![] bcast_S_S16x3x16384 main_cst_0
  let main_v6 : IVec S16x3x16384 1 := cmpf .olt main_v4 main_v5
  let main_c_1 : IVec S_ 1 := constantI S_ 1 1#1
  let main_v7 : IVec S_ 1 := (fun x v => Host.reduce IntOp.andi x v reducesTo_S16x3x16384_S_d0_1_2 h_S_) main_v6 main_c_1
  let main_v8 : IVec S_ 1 := andi main_v3 main_v7
  main_v8
-- ==== Kernel.lean ====
abbrev S16x3x128 : Shape := ⟨3, ![16, 3, 128]⟩
abbrev S16x3x16384 : Shape := ⟨3, ![16, 3, 16384]⟩
abbrev S16x128x1 : Shape := ⟨3, ![16, 128, 1]⟩
abbrev S1x3x128 : Shape := ⟨3, ![1, 3, 128]⟩
abbrev S1x3x8192 : Shape := ⟨3, ![1, 3, 8192]⟩
abbrev S1x128x1 : Shape := ⟨3, ![1, 128, 1]⟩
abbrev S128x1 : Shape := ⟨2, ![128, 1]⟩
abbrev S3x128 : Shape := ⟨2, ![3, 128]⟩
abbrev S3x8192 : Shape := ⟨2, ![3, 8192]⟩
abbrev S128x8192 : Shape := ⟨2, ![128, 8192]⟩
abbrev S128 : Shape := ⟨1, ![128]⟩
abbrev S1x128 : Shape := ⟨2, ![1, 128]⟩
abbrev S8192 : Shape := ⟨1, ![8192]⟩
abbrev S1x8192 : Shape := ⟨2, ![1, 8192]⟩
abbrev S16x128 : Shape := ⟨2, ![16, 128]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S16x3x128, .f32⟩
  | .hbm, ⟨1, _⟩ => ⟨S16x3x16384, .f32⟩
  | .hbm, ⟨2, _⟩ => ⟨S16x128x1, .f32⟩
  | .hbm, ⟨3, _⟩ => ⟨S16x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x3x128, .f32⟩
  | .local _ .vmem, ⟨1, _⟩ => ⟨S1x3x8192, .f32⟩
  | .local _ .vmem, ⟨2, _⟩ => ⟨S1x3x8192, .f32⟩
  | .local _ .vmem, ⟨3, _⟩ => ⟨S1x128x1, .f32⟩
  | .local _ .vmem, ⟨4, _⟩ => ⟨S1x128x1, .f32⟩
  | _, _ => ⟨S16x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  reduces_S3x128_S128 : S3x128.Reduces [0] S128
  shapeCasts_S128_S1x128 : S128.ShapeCasts S1x128
  transposes_S1x128_p1_0_S128x1 : S1x128.Transposes [1, 0] S128x1
  reduces_S3x8192_S8192 : S3x8192.Reduces [0] S8192
  shapeCasts_S8192_S1x8192 : S8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  shapeCasts_S16x128x1_S16x128 : S16x128x1.ShapeCasts S16x128
  reducesTo_S16x128_S_d0_1 : S16x128.ReducesTo [0, 1] S_
  h_S_ : 0 < S_.numel
  dot_S3x128_S3x8192_S128x8192_0_0_1_1_n_n_wf : DotDims.WF S3x128 S3x8192 S128x8192 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x3x128.size a ≤ S16x3x128.size a
  hwx0_0 : ∀ i : grid0.Coords, EltTy.bits .f32 = 32 ∨ (Rect.block (s := S16x3x128) S1x3x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S16x3x16384.size a
  hwx0_1 : ∀ i : grid0.Coords, EltTy.bits .f32 = 32 ∨ (Rect.block (s := S16x3x16384) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S16x128x1.size a
  hwx0_2 : ∀ i : grid0.Coords, EltTy.bits .f32 = 32 ∨ (Rect.block (s := S16x128x1) S1x128x1.size (cc0_transform_2 i) (hinb0_2 i)).WholeWords (EltTy.packing .f32)

variable [Facts₀]

def dot_S3x128_S3x8192_S128x8192_0_0_1_1_n_n : DotDims S3x128 S3x8192 S128x8192 where
  lhsContracting := [0]
  rhsContracting := [0]
  lhsNonContracting := [1]
  rhsNonContracting := [1]
  lhsBatch := []
  rhsBatch := []
  wf := dot_S3x128_S3x8192_S128x8192_0_0_1_1_n_n_wf

abbrev win0_0 : Pipeline.Window sig grid0 :=
  Pipeline.Window.ofSpec (Memref.whole main_arg0) S1x3x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x128 : Shape := ⟨3, ![16, 3, 128]⟩
abbrev S16x3x16384 : Shape := ⟨3, ![16, 3, 16384]⟩
abbrev S16x3x128x1 : Shape := ⟨4, ![16, 3, 128, 1]⟩
abbrev S16x3x1x16384 : Shape := ⟨4, ![16, 3, 1, 16384]⟩
abbrev S16x3x128x16384 : Shape := ⟨4, ![16, 3, 128, 16384]⟩
abbrev S_ : Shape := ⟨0, ![]⟩
abbrev S16x128x16384 : Shape := ⟨3, ![16, 128, 16384]⟩
abbrev S16x128 : Shape := ⟨2, ![16, 128]⟩

abbrev nBuf : Space → Nat
  | .hbm => 17
  | .vmem => 0
  | .smem => 0
  | _ => 0

abbrev bufTy : (tb : Table) → Fin (tcTables nBuf tb) → BufTy
  | .hbm, ⟨0, _⟩ => ⟨S16x3x128, .f32⟩
  | .hbm, ⟨1, _⟩ => ⟨S16x3x16384, .f32⟩
  | .hbm, ⟨2, _⟩ => ⟨S16x3x128x1, .f32⟩
  | .hbm, ⟨3, _⟩ => ⟨S16x3x1x16384, .f32⟩
  | .hbm, ⟨4, _⟩ => ⟨S16x3x128x16384, .f32⟩
  | .hbm, ⟨5, _⟩ => ⟨S16x3x128x16384, .f32⟩
  | .hbm, ⟨6, _⟩ => ⟨S16x3x128x16384, .f32⟩
  | .hbm, ⟨7, _⟩ => ⟨S16x3x128x16384, .f32⟩
  | .hbm, ⟨8, _⟩ => ⟨S_, .f32⟩
  | .hbm, ⟨9, _⟩ => ⟨S16x128x16384, .f32⟩
  | .hbm, ⟨10, _⟩ => ⟨S16x128x16384, .f32⟩
  | .hbm, ⟨11, _⟩ => ⟨S_, .f32⟩
  | .hbm, ⟨12, _⟩ => ⟨S16x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S16x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S16x3x128_S16x3x128x1_0_1_2 : S16x3x128.BroadcastsInDim S16x3x128x1 (![0, 1, 2] : Fin 3 → Fin S16x3x128x1.rank)
  bcast_S16x3x16384_S16x3x1x16384_0_1_3 : S16x3x16384.BroadcastsInDim S16x3x1x16384 (![0, 1, 3] : Fin 3 → Fin S16x3x1x16384.rank)
  bcast_S16x3x128x1_S16x3x128x16384_0_1_2_3 : S16x3x128x1.BroadcastsInDim S16x3x128x16384 (![0, 1, 2, 3] : Fin 4 → Fin S16x3x128x16384.rank)
  bcast_S16x3x1x16384_S16x3x128x16384_0_1_2_3 : S16x3x1x16384.BroadcastsInDim S16x3x128x16384 (![0, 1, 2, 3] : Fin 4 → Fin S16x3x128x16384.rank)
  reducesTo_S16x3x128x16384_S16x128x16384_d1 : S16x3x128x16384.ReducesTo [1] S16x128x16384
  h_S_ : 0 < S_.numel
  reducesTo_S16x128x16384_S16x128_d2 : S16x128x16384.ReducesTo [2] S16x128
  reducesTo_S16x128_S_d0_1 : S16x128.ReducesTo [0, 1] S_

variable [Facts₀]

class Facts : Prop extends Facts₀ where

variable [Facts]
-- ==== Proof.Nearest.lean ====
/-
  The distance from a point to the nearest point of a cloud, two ways, over the extended reals.

  For a point `k` of three coordinates and a cloud `p n` (`n < 16384`) of such points:

  * DIRECT: the least over `n` of `√(∑_c (k_c − p_{n,c})²)` (`nearestAt`);
  * EXPANDED, two tiles of 8192: the square root of the least, over the two tiles, of the tile's least
    `max (∑_c k_c² + ∑_c p_{n,c}² − 2·∑_c k_c·p_{n,c}) 0` (`kernelAt`).

  When every coordinate is a real number the two agree (`kernelAt_eq_nearestAt`): the binomial identity
  `‖k‖² + ‖p‖² − 2⟨k,p⟩ = ‖k − p‖²` holds in ℝ (not at the infinities, where a difference `⊤ − ⊤` appears), a sum of
  squares is nonnegative so the clamp at zero does nothing, the least of a family indexed by `Fin 16384` is the least of
  the two half-families' leasts, and the square root is monotone on the extended reals, so it commutes with a least
  of finitely many values.
-/
import Idealize.ShloMosaic.PureOps.Ideal
import Idealize.ShloMosaic.PureOps.Ideal.Laws

noncomputable section

namespace Cert.Nearest

open Idealize.ShloMosaic

/-- The three float constants the two programs spell, as the extended reals they denote. -/
abbrev fzero : EReal := Ideal.ofBits .f32 0x00000000#32
abbrev ftwo : EReal := Ideal.ofBits .f32 0x40000000#32
abbrev finf : EReal := Ideal.ofBits .f32 0x7F800000#32

/-- The squared distance, as a sum of squared differences from zero. -/
def sqDist (k p : Fin 3 → EReal) : EReal := fzero + ∑ c : Fin 3, (k c - p c) * (k c - p c)

/-- The squared distance expanded, clamped at zero. -/
def sqDistExpanded (k p : Fin 3 → EReal) : EReal :=
  max (((∑ c : Fin 3, k c * k c) + ∑ c : Fin 3, p c * p c) - ftwo * ∑ c : Fin 3, k c * p c) fzero

/-- The least expanded squared distance over one tile of 8192 cloud points. -/
def tileMin (k : Fin 3 → EReal) (p : Fin 8192 → Fin 3 → EReal) : EReal :=
  (Finset.univ : Finset (Fin 8192)).fold min finf fun n => sqDistExpanded k (p n)

/-- Cloud point `n` of the first tile is point `n`, of the second tile point `8192 + n`. -/
abbrev tile0 (n : Fin 8192) : Fin 16384 := ⟨n.val, by have := n.isLt; omega⟩
abbrev tile1 (n : Fin 8192) : Fin 16384 := ⟨8192 + n.val, by have := n.isLt; omega⟩

/-- Tile by tile from `+∞`, then the square root. -/
def kernelAt (k : Fin 3 → EReal) (p : Fin 16384 → Fin 3 → EReal) : EReal :=
  Ideal.sqrt (min (min finf (tileMin k fun n => p (tile0 n))) (tileMin k fun n => p (tile1 n)))

/-- The least distance over the whole cloud. -/
def nearestAt (k : Fin 3 → EReal) (p : Fin 16384 → Fin 3 → EReal) : EReal :=
  (Finset.univ : Finset (Fin 16384)).fold min finf fun n => Ideal.sqrt (sqDist k (p n))

/-- The pattern of `+0.0` denotes `0`. -/
theorem fzero_eq : fzero = 0 := by
  simp [Ideal.ofBits, Ideal.ieee]

/-- The pattern of `2.0` denotes the real `2`. -/
theorem ftwo_eq : ftwo = ((2 : ℝ) : EReal) := by
  simp [Ideal.ofBits, Ideal.ieee, -EReal.coe_mul]; norm_num

/-- The pattern of `+∞` denotes `⊤`. -/
theorem finf_eq : finf = ⊤ := by
  simp [Ideal.ofBits, Ideal.ieee]

/-- The binomial identity and the vacuous clamp, for six reals seen in the extended reals. -/
theorem expanded_eq_real (x y z u v w : ℝ) :
    max ((((x : EReal) * x + (y : EReal) * y + (z : EReal) * z)
        + ((u : EReal) * u + (v : EReal) * v + (w : EReal) * w))
        - ((2 : ℝ) : EReal) * ((x : EReal) * u + (y : EReal) * v + (z : EReal) * w)) 0
      = 0 + (((x : EReal) - u) * ((x : EReal) - u) + ((y : EReal) - v) * ((y : EReal) - v)
        + ((z : EReal) - w) * ((z : EReal) - w)) := by
  have e : (((x : EReal) * x + (y : EReal) * y + (z : EReal) * z)
        + ((u : EReal) * u + (v : EReal) * v + (w : EReal) * w))
        - ((2 : ℝ) : EReal) * ((x : EReal) * u + (y : EReal) * v + (z : EReal) * w)
      = (((x - u) * (x - u) + (y - v) * (y - v) + (z - w) * (z - w) : ℝ) : EReal) := by
    norm_cast
    ring
  have e' : ((x : EReal) - u) * ((x : EReal) - u) + ((y : EReal) - v) * ((y : EReal) - v)
        + ((z : EReal) - w) * ((z : EReal) - w)
      = (((x - u) * (x - u) + (y - v) * (y - v) + (z - w) * (z - w) : ℝ) : EReal) := by
    norm_cast
  have nn : 0 ≤ (x - u) * (x - u) + (y - v) * (y - v) + (z - w) * (z - w) :=
    add_nonneg (add_nonneg (mul_self_nonneg _) (mul_self_nonneg _)) (mul_self_nonneg _)
  rw [e, e', zero_add, max_eq_left]
  exact_mod_cast nn

/-- On real coordinates the expanded, clamped squared distance is the squared distance. -/
theorem sqDistExpanded_eq_sqDist (k p : Fin 3 → EReal)
    (hk : ∀ c, ∃ r : ℝ, k c = (r : EReal)) (hp : ∀ c, ∃ r : ℝ, p c = (r : EReal)) :
    sqDistExpanded k p = sqDist k p := by
  choose a ha using hk
  choose b hb using hp
  unfold sqDistExpanded sqDist
  rw [fzero_eq, ftwo_eq]
  simp only [Fin.sum_univ_three, ha, hb]
  exact expanded_eq_real _ _ _ _ _ _

/-- The square root is monotone on the extended reals. -/
theorem sqrt_mono : Monotone Ideal.sqrt := by
  intro x y hxy
  induction x with
  | bot => simp
  | top =>
    have hy : y = ⊤ := top_le_iff.mp hxy
    subst hy
    exact le_rfl
  | coe r =>
    induction y with
    | bot => simp at hxy
    | top => simp
    | coe s =>
      have hrs : r ≤ s := EReal.coe_le_coe_iff.mp hxy
      simp only [Ideal.sqrt_coe]
      split_ifs with h1 h2
      · exact le_rfl
      · exact bot_le
      · exfalso; linarith
      · exact EReal.coe_le_coe_iff.mpr (Real.sqrt_le_sqrt hrs)

/-- The square root, monotone and fixing `⊤`, commutes with the least of finitely many values. -/
theorem sqrt_fold_min {ι : Type} (s : Finset ι) (f : ι → EReal) :
    Ideal.sqrt (s.fold min ⊤ f) = s.fold min ⊤ (fun i => Ideal.sqrt (f i)) := by
  classical
  induction s using Finset.induction_on with
  | empty => simp
  | insert a s ha ih =>
    rw [Finset.fold_insert ha, Finset.fold_insert ha, sqrt_mono.map_min, ih]

/-- The least over `Fin 16384` is the least of the leasts over its two halves. -/
theorem fold_min_tiles (g : Fin 16384 → EReal) :
    min (min ⊤ ((Finset.univ : Finset (Fin 8192)).fold min ⊤ fun n => g (tile0 n)))
        ((Finset.univ : Finset (Fin 8192)).fold min ⊤ fun n => g (tile1 n))
      = (Finset.univ : Finset (Fin 16384)).fold min ⊤ g := by
  refine eq_of_forall_le_iff fun c => ?_
  simp only [le_min_iff, Finset.le_fold_min, le_top, true_and, Finset.mem_univ, forall_true_left]
  constructor
  · rintro ⟨h0, h1⟩ n
    by_cases hn : n.val < 8192
    · have h := h0 ⟨n.val, hn⟩
      have e : tile0 ⟨n.val, hn⟩ = n := Fin.ext rfl
      rwa [e] at h
    · have hlt : n.val - 8192 < 8192 := by have := n.isLt; omega
      have h := h1 ⟨n.val - 8192, hlt⟩
      have e : tile1 ⟨n.val - 8192, hlt⟩ = n := Fin.ext (by show 8192 + (n.val - 8192) = n.val; omega)
      rwa [e] at h
  · intro h
    exact ⟨fun n => h _, fun n => h _⟩

/-- On real coordinates the two ways agree: the two tiles' leasts are the least over the whole cloud, the square root
    moves inside the least, and under it the expanded, clamped squared distance is the squared distance. -/
theorem kernelAt_eq_nearestAt (k : Fin 3 → EReal) (p : Fin 16384 → Fin 3 → EReal)
    (hk : ∀ c, ∃ r : ℝ, k c = (r : EReal)) (hp : ∀ n c, ∃ r : ℝ, p n c = (r : EReal)) :
    kernelAt k p = nearestAt k p := by
  simp only [kernelAt, nearestAt, tileMin]
  rw [finf_eq, fold_min_tiles (fun n => sqDistExpanded k (p n)), sqrt_fold_min]
  refine Finset.fold_congr fun n _ => ?_
  rw [sqDistExpanded_eq_sqDist k (p n) hk (hp n)]

end Cert.Nearest

end
-- ==== Proof.Target.lean ====
/-
  The common value of the two programs, over the literal shapes: for batch `b` and keypoint `r` the distance
  from keypoint `(b, ·, r)` of the first array to the nearest of the 16384 cloud points `(b, ·, n)` of the second
  (`nearestGrid`), and the mean of those 16·128 distances (`meanOf`: the sum from zero, divided by 2048).
-/
import proofs.«113692_j51462298141282_2_alg».proof.Proof.Nearest
import Idealize.ShloMosaic.Lib.ValueIdx

noncomputable section

namespace Cert.Nearest

open Idealize.ShloMosaic Idealize.ShloMosaic.ValueIdx

/-- Keypoint `r` of batch `b`: its three coordinates. -/
def kpt (x0 : (⟨3, ![16, 3, 128]⟩ : Shape).Idx → EReal) (b : Fin 16) (r : Fin 128) : Fin 3 → EReal :=
  fun c => x0 (ix3 b c r)

/-- The cloud of batch `b`: point `n`'s three coordinates. -/
def cloud (x1 : (⟨3, ![16, 3, 16384]⟩ : Shape).Idx → EReal) (b : Fin 16) : Fin 16384 → Fin 3 → EReal :=
  fun n c => x1 (ix3 b c n)

/-- The distance to the nearest cloud point, for every batch and keypoint. -/
def nearestGrid (x0 : (⟨3, ![16, 3, 128]⟩ : Shape).Idx → EReal) (x1 : (⟨3, ![16, 3, 16384]⟩ : Shape).Idx → EReal) :
    (⟨2, ![16, 128]⟩ : Shape).Idx → EReal :=
  fun j => nearestAt (kpt x0 (j 0) (j 1)) (cloud x1 (j 0))

/-- The mean of a [16, 128] array as both programs take it: the sum from zero, divided by 2048. -/
def meanOf (X : (⟨2, ![16, 128]⟩ : Shape).Idx → EReal) : EReal :=
  Ideal.div (fzero + ∑ j, X j) (Ideal.ofBits .f32 0x45000000#32)

end Cert.Nearest

end
-- ==== Proof.Finite.lean ====
/-
  Finite inputs are real numbers. The precondition says of each argument array that every entry's absolute value
  `max x (-x)` is strictly below `+∞`; over the extended reals that excludes exactly `+∞` and `-∞`, so every entry is
  (the coercion of) a real number.
-/
import proofs.«113692_j51462298141282_2_alg».proof.Pre_finite_inputs
import proofs.«113692_j51462298141282_2_alg».proof.Proof.Nearest
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- The shape of rank zero has exactly one index. -/
instance : Subsingleton Cert.Pre_finite_inputs.S_.Idx := ⟨fun a b => funext fun d => d.elim0⟩

/-- An extended real whose absolute value `max x (-x)` is strictly below `⊤` is a real number: at `⊥` and at `⊤`
    the absolute value is `⊤`. -/
theorem real_of_abs_lt_top (x : EReal) (hx : max x (-x) < ⊤) : ∃ r : ℝ, x = (r : EReal) := by
  induction x using EReal.rec with
  | bot => simp at hx
  | coe r => exact ⟨r, rfl⟩
  | top => simp at hx

/-- The pattern of `+∞` denotes `⊤`. -/
theorem inf_eq_top : Ideal.ofBits .f32 0x7F800000#32 = (⊤ : EReal) :=
  Cert.Nearest.finf_eq

/-- The comparison `|x| < +∞` coming out true says `x` is a real number. -/
theorem real_of_cmp (x : EReal)
    (e : Ideal.cmp .olt (max x (-x)) (Ideal.ofBits .f32 0x7F800000#32) = 1#1) : ∃ r : ℝ, x = (r : EReal) := by
  rw [inf_eq_top] at e
  refine real_of_abs_lt_top x ?_
  by_contra hne
  simp [Ideal.cmp, hne] at e

/-- The precondition's value at its one index is the conjunction of two conjunctions over all entries, one per array;
    each being true, every entry's comparison `|x| < +∞` is true. -/
theorem real_of_finite_inputs [Cert.Pre_finite_inputs.Facts]
    (a0 : FVec Ideal Cert.Pre_finite_inputs.S16x3x128 .f32) (a1 : FVec Ideal Cert.Pre_finite_inputs.S16x3x16384 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  refine ⟨fun i => ?_, fun i => ?_⟩
  · exact real_of_cmp (a0 i) (Host.reduce_andi_all _ _ _ _ _ h1 i)
  · exact real_of_cmp (a1 i) (Host.reduce_andi_all _ _ _ _ _ h2 i)

end Cert.Finite

end
-- ==== Proof.RefSide.lean ====
/-
  The reference computes the mean nearest-point distance: its array of per-keypoint minima is `nearestGrid` of the
  two arguments (the difference of the two broadcasts at `(b, c, r, n)` is keypoint coordinate `(b, c, r)` minus cloud
  coordinate `(b, c, n)`; the sum over `c` from zero, the square root, the minimum over `n` from `+∞`), and its result is
  the sum of that array from zero divided by 2048.
-/
import proofs.«113692_j51462298141282_2_alg».proof.Proof.Gen.ReferenceIdeal.Read
import proofs.«113692_j51462298141282_2_alg».proof.Proof.Target

noncomputable section

namespace Cert.RefSide

open Idealize.ShloMosaic Idealize.ShloMosaic.ValueIdx Cert.ReferenceIdeal Cert.ReferenceIdeal.Gen Cert.ReferenceIdeal.Read

/-- Dropping the last axis of `[16, 128, 16384]` leaves `[16, 128]`. -/
theorem reduces_d2 : S16x128x16384.Reduces [2] S16x128 := by decide

/-- The index over `(b, r)` with last coordinate `n` is `(b, r, n)`. -/
theorem lift_d2 (b : Fin 16) (r : Fin 128) (n : Fin 16384) :
    reduces_d2.lift (ix2 b r) n = ix3 b r n := by
  funext a
  apply Fin.ext
  match a with
  | ⟨0, _⟩ => rfl
  | ⟨1, _⟩ => rfl
  | ⟨2, _⟩ => rfl

/-- Through the sum over `c` and the two broadcasts, element `(b, r, n)` reads the first array at `(b, c, r)`. -/
theorem idx_left (b : Fin 16) (r : Fin 128) (n : Fin 16384) (c : Fin 3) :
    idx_main_v0 (idx_main_v2 (idx_main_v6 (ix3 b r n) c)) = ix3 b c r := by
  funext a
  apply Fin.ext
  match a with
  | ⟨0, _⟩ => rfl
  | ⟨1, _⟩ => rfl
  | ⟨2, _⟩ => rfl

/-- … and the second array at `(b, c, n)`. -/
theorem idx_right (b : Fin 16) (r : Fin 128) (n : Fin 16384) (c : Fin 3) :
    idx_main_v1 (idx_main_v3 (idx_main_v6 (ix3 b r n) c)) = ix3 b c n := by
  funext a
  apply Fin.ext
  match a with
  | ⟨0, _⟩ => rfl
  | ⟨1, _⟩ => rfl
  | ⟨2, _⟩ => rfl

/-- The reference's distance array at `(b, r, n)`: the square root of the squared distance from keypoint `(b, r)`
    to cloud point `(b, n)`. -/
theorem dist_at (x0 : (⟨S16x3x128, .f32⟩ : BufTy).Contents (Elt Ideal)) (x1 : (⟨S16x3x16384, .f32⟩ : BufTy).Contents (Elt Ideal))
    (b : Fin 16) (r : Fin 128) (n : Fin 16384) :
    val_main_v7 (F := Ideal) x0 x1 (ix3 b r n)
      = Ideal.sqrt (Cert.Nearest.sqDist (Cert.Nearest.kpt x0 b r) (Cert.Nearest.cloud x1 b n)) := by
  rw [val_main_v7_apply, val_main_v6_apply]
  simp only [val_main_v5_apply, val_main_v4_apply, val_main_v2_apply, val_main_v0_apply, val_main_v3_apply,
    val_main_v1_apply, idx_left, idx_right, val_main_cst_apply, Ideal.ofBits_def, Ideal.hostUnary_sqrt_def,
    Ideal.subf_def, Ideal.mulf_def]
  unfold Cert.Nearest.sqDist Cert.Nearest.kpt Cert.Nearest.cloud
  rfl

/-- The reference's minimum over `n` from `+∞` of its distance array is the nearest-point distance: the minimum,
    a commutative and associative operation, folds over the last coordinate, and each folded entry is the distance
    from keypoint `(b, r)` to cloud point `(b, n)`. -/
theorem minima_eq (x0 : (⟨S16x3x128, .f32⟩ : BufTy).Contents (Elt Ideal)) (x1 : (⟨S16x3x16384, .f32⟩ : BufTy).Contents (Elt Ideal)) :
    val_main_v8 (F := Ideal) x0 x1 = Cert.Nearest.nearestGrid x0 x1 := by
  funext j
  obtain ⟨b, r, rfl⟩ : ∃ (b : Fin 16) (r : Fin 128), j = ix2 b r := ⟨j 0, j 1, eq_ix2 j⟩
  unfold val_main_v8
  rw [Host.reduce_eq_fold_single FloatOps.minimumf _ _ reducesTo_S16x128x16384_S16x128_d2 reduces_d2 h_S_]
  show _ = Cert.Nearest.nearestAt (Cert.Nearest.kpt x0 b r) (Cert.Nearest.cloud x1 b)
  unfold Cert.Nearest.nearestAt
  refine Finset.fold_congr (fun n _ => ?_)
  exact (congrArg (val_main_v7 (F := Ideal) x0 x1) (lift_d2 b r n)).trans (dist_at x0 x1 b r n)

/-- The reference's result: the sum of the minima from zero, divided by 2048. -/
theorem result_eq (x0 : (⟨S16x3x128, .f32⟩ : BufTy).Contents (Elt Ideal)) (x1 : (⟨S16x3x16384, .f32⟩ : BufTy).Contents (Elt Ideal)) :
    val_main_v10 (F := Ideal) x0 x1 = fun _ => Cert.Nearest.meanOf (Cert.Nearest.nearestGrid x0 x1) := by
  funext i
  rw [val_main_v10_apply, val_main_v9_apply, minima_eq]
  simp only [val_main_cst_1_apply, val_main_cst_2_apply, Ideal.ofBits_def, Ideal.hostDivf_def]
  unfold Cert.Nearest.meanOf
  rfl

end Cert.RefSide

end
-- ==== Proof.Cases.lean ====
/-
  What one grid step leaves in the output block, for any float values.

  The output block of batch `b` stays in place over the two tiles of the cloud. At the first tile the body
  stores `+∞` into the block, reads it back, and stores the elementwise minimum of what it read and the tile's own
  minimum (`k0_pay3` of the two input blocks and of the `+∞` block `k0_pay2`). At the second tile it takes the minimum
  of the block as the first tile left it and this tile's minimum, stores it, reads it back and stores its square
  root (`k0_pay1` of that `k0_pay3`).
-/
import proofs.«113692_j51462298141282_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

theorem hz : (![0, 0, 0] : Fin 3 → Nat) = fun _ => 0 := funext fun a => by fin_cases a <;> rfl

/-- The first tile: the block ends at the minimum of the `+∞` block and the tile's minimum. -/
theorem first_tile (c : Dev nD) (i : grid0.Coords) (a2 : Memref sig .tc .vmem S1x3x128 .f32) (h2 : a2.IsWhole)
    (a3 : Memref sig .tc .vmem S1x3x8192 .f32) (h3 : a3.IsWhole) (a4 : Memref sig .tc .vmem S1x128x1 .f32) (h4 : a4.IsWhole)
    (hc0 : cond0_0 i) (hc1 : ¬cond0_1 i) (x0 : Vec F S1x3x128 .f32) (x1 : Vec F S1x3x8192 .f32) :
    out0_A_2 c i a2 h2 a3 h3 a4 h4 hc0 hc1 x0 x1 = k0_pay3 x0 x1 (k0_pay2 (F := F)) := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S1x128x1) hz, View.readCov_unit_zero (S := S1x128x1) _ hz]
  simp only [View.readAt_eq_ld, h2.read_unread, h3.read_unread, View.ld_unit_zero (S := S1x3x128) hz,
    View.ld_unit_zero (S := S1x3x8192) hz]

/-- The second tile: the block `xo` the first tile left ends at the square root of the minimum of `xo` and this
    tile's minimum. -/
theorem second_tile (c : Dev nD) (i : grid0.Coords) (a2 : Memref sig .tc .vmem S1x3x128 .f32) (h2 : a2.IsWhole)
    (a3 : Memref sig .tc .vmem S1x3x8192 .f32) (h3 : a3.IsWhole) (a4 : Memref sig .tc .vmem S1x128x1 .f32) (h4 : a4.IsWhole)
    (hc0 : ¬cond0_0 i) (hc1 : cond0_1 i) (x0 : Vec F S1x3x128 .f32) (x1 : Vec F S1x3x8192 .f32) (xo : Vec F S1x128x1 .f32) :
    out0_B_2 c i a2 h2 a3 h3 a4 h4 hc0 hc1 x0 x1 xo = k0_pay1 (k0_pay3 x0 x1 xo) := by
  unfold out0_B_2
  rw [View.read_writes_eq_canon _ _ _ (cover0_B_2 c i a2 h2 a3 h3 a4 h4 hc0 hc1 x0 x1 xo)]
  unfold kernelRun0_B
  dsimp only
  sl_unfold_words
  rw [View.canon_cons_unit_zero (S := S1x128x1) hz, View.readCov_unit_zero (S := S1x128x1) _ hz]
  simp only [View.readAt_eq_ld, h2.read_unread, h3.read_unread, h4.read_unread, View.ld_unit_zero (S := S1x3x128) hz,
    View.ld_unit_zero (S := S1x3x8192) hz, View.ld_unit_zero (S := S1x128x1) hz]

end Cert.KernelIdeal.Steps

end
-- ==== Proof.LibColCol.lean ====
/-
  A matrix product contracted along the rows of both factors, read at an entry, for any sizes.

  For a K by M left factor and a K by N right factor contracted along axis 0 of both (no batch axis), the operand
  indices at the output entry (a, b) and the contraction index c are (c, a) and (c, b). So the entry (a, b) of the
  product is ∑ c, l (c, a) · r (c, b) — the transpose of the left factor times the right factor — for the matrix
  unit's product into a zero accumulator (`matmul_zero_colCol_apply`) and, over the raw contraction index, for any
  reading of the product as a sum of the operands' products (`sum_products_colCol`).
-/
import Idealize.ShloMosaic.PureOps.Ideal
import Idealize.ShloMosaic.PureOps.Ideal.Laws
import Idealize.ShloMosaic.Lib.ValueIdx

noncomputable section

open scoped BigOperators

namespace Cert.LibColCol

open Idealize.ShloMosaic Idealize.ShloMosaic.ValueIdx

variable {M K N : ℕ}

/-- The dimension numbers contracting axis 0 of both factors, no batch axis. -/
abbrev colCol (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

/-- The left operand's column coordinate at the output entry (a, b) is a, whatever the contraction index. -/
theorem lhs_col (wf : DotDims.WF ⟨2, ![K, M]⟩ ⟨2, ![K, N]⟩ ⟨2, ![M, N]⟩ [0] [0] [1] [1] [] [])
    (i : (⟨2, ![M, N]⟩ : Shape).Idx) (q : (colCol wf).contr.Idx) : ((colCol wf).lhsIdx i q 1).val = (i 0).val := by
  unfold DotDims.lhsIdx
  rw [dif_neg (by simp), dif_pos (by simp)]
  rfl

/-- The right operand's column coordinate at the output entry (a, b) is b, whatever the contraction index. -/
theorem rhs_col (wf : DotDims.WF ⟨2, ![K, M]⟩ ⟨2, ![K, N]⟩ ⟨2, ![M, N]⟩ [0] [0] [1] [1] [] [])
    (i : (⟨2, ![M, N]⟩ : Shape).Idx) (q : (colCol wf).contr.Idx) : ((colCol wf).rhsIdx i q 1).val = (i 1).val := by
  unfold DotDims.rhsIdx
  rw [dif_neg (by simp), dif_pos (by simp)]
  rfl

/-- The sum over the contraction index of the products of the operands' entries is the sum over the shared row
    coordinate c of l (c, a) · r (c, b). -/
theorem sum_products_colCol (wf : DotDims.WF ⟨2, ![K, M]⟩ ⟨2, ![K, N]⟩ ⟨2, ![M, N]⟩ [0] [0] [1] [1] [] [])
    (l : (⟨2, ![K, M]⟩ : Shape).Idx → EReal) (r : (⟨2, ![K, N]⟩ : Shape).Idx → EReal) (a : Fin M) (b : Fin N) :
    ∑ k : (colCol wf).contr.Idx, l ((colCol wf).lhsIdx (ix2 a b) k) * r ((colCol wf).rhsIdx (ix2 a b) k)
      = ∑ c : Fin K, l (ix2 c a) * r (ix2 c b) := by
  rw [← Equiv.sum_comp (contrEquiv1 (colCol wf) K rfl rfl).symm]
  refine Finset.sum_congr rfl fun c _ => ?_
  have hk := contrEquiv1_symm_val (colCol wf) K rfl rfl c
  have el : (colCol wf).lhsIdx (ix2 a b) ((contrEquiv1 (colCol wf) K rfl rfl).symm c) = ix2 c a := funext fun ax => Fin.ext (by
    match ax with
    | ⟨0, _⟩ => exact ((colCol wf).lhsIdx_val_of_single rfl (ix2 a b) _).trans hk
    | ⟨1, _⟩ => exact lhs_col wf _ _)
  have er : (colCol wf).rhsIdx (ix2 a b) ((contrEquiv1 (colCol wf) K rfl rfl).symm c) = ix2 c b := funext fun ax => Fin.ext (by
    match ax with
    | ⟨0, _⟩ => exact ((colCol wf).rhsIdx_val_of_single rfl (ix2 a b) _).trans hk
    | ⟨1, _⟩ => exact rhs_col wf _ _)
  rw [el, er]

/-- The matrix unit's product into a zero accumulator at an entry, for any record of dimension numbers contracting
    axis 0 of both factors. -/
theorem matmul_zero_colCol_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 c a) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products_colCol wf l r a b

end Cert.LibColCol

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's three stored values read at an entry, over the extended reals.

  The output block is a column `[1, 128, 1]`; entry `(0, r, 0)` belongs to keypoint `r`.
  * The reset value is `+∞` at every entry.
  * The running minimum: with `k_c = x0 (0, c, r)` the keypoint's coordinates and `p_{n,c} = x1 (0, c, n)` the tile's 8192
    cloud points, the matrix product contracted over the three coordinate rows gives `∑_c k_c·p_{n,c}` at `(r, n)`, the
    two column sums of squares give `∑_c k_c²` (kept as a column and spread along the row) and `∑_c p_{n,c}²` (kept as a row
    and repeated down the rows); their sum minus twice the product, clamped at zero, is minimized along the row from
    `+∞`; the entry is the minimum of what the block held and that.
  * The final value is the square root of what the block held.
-/
import proofs.«113692_j51462298141282_2_alg».proof.Proof.Gen.KernelIdeal.Skeleton
import proofs.«113692_j51462298141282_2_alg».proof.Proof.Target
import proofs.«113692_j51462298141282_2_alg».proof.Proof.LibColCol
import proofs.«113692_j51462298141282_2_alg».proof.Proof.LibColumn
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Nearest

/-- The sum over the three rows of a `[3, N]` array, read at column `r`. -/
theorem colSum_apply {N : ℕ} (v : FVec Ideal ⟨2, ![3, N]⟩ .f32) (h : Shape.Reduces ⟨2, ![3, N]⟩ [0] ⟨1, ![N]⟩)
    (hφ : FKind.Formats .f32) (hacc : (0x00000000#32 : BitVec FTy.f32.bits) = FKind.add.neutral .f32 hφ) (r : Fin N) :
    multiReduction .add [0] ⟨1, ![N]⟩ v 0x00000000#32 h hφ hacc (ix1 r) = ∑ c : Fin 3, v (ix2 c r) := by
  refine (Ideal.multiReduction_add_single v 0x00000000#32 h hφ hacc (ix1 r)).trans ?_
  refine Finset.sum_congr rfl fun c _ => congrArg v ?_
  funext ax
  refine Fin.ext ?_
  match ax with
  | ⟨0, _⟩ => rfl
  | ⟨1, _⟩ => rfl

/-- The least along row `r` of a `[128, 8192]` array, from `+∞`. -/
theorem rowMin_apply (w : FVec Ideal S128x8192 .f32) (h : Shape.Reduces S128x8192 [1] S128)
    (hφ : FKind.Formats .f32) (hacc : (0x7F800000#32 : BitVec FTy.f32.bits) = FKind.minimumf.neutral .f32 hφ) (r : Fin 128) :
    multiReduction .minimumf [1] S128 w 0x7F800000#32 h hφ hacc (ix1 r)
      = (Finset.univ : Finset (Fin 8192)).fold min finf fun n => w (ix2 r n) := by
  refine (multiReduction_minimumf_eq_fold w 0x7F800000#32 h hφ hacc (ix1 r)).trans ?_
  refine (h.fold_filter_drop_single _ _ w (ix1 r)).trans ?_
  show (Finset.univ : Finset (Fin 8192)).fold min finf (w ∘ h.lift (ix1 r)) = _
  refine Finset.fold_congr fun n _ => congrArg w ?_
  funext ax
  refine Fin.ext ?_
  match ax with
  | ⟨0, _⟩ => rfl
  | ⟨1, _⟩ => rfl

/-- The reset block holds `+∞` everywhere. -/
theorem reset_apply (y : S1x128x1.Idx) : k0_pay2 (F := Ideal) y = finf := by
  obtain ⟨a, b, c, rfl⟩ : ∃ (a : Fin 1) (b : Fin 128) (c : Fin 1), y = ix3 a b c := ⟨_, _, _, eq_ix3 y⟩
  unfold k0_pay2
  exact (shapeCast_ab_1ab_apply _ _ a b c).trans rfl

/-- The final value at keypoint `r`: the square root of the block's entry. -/
theorem root_apply (v : Vec Ideal S1x128x1 .f32) (r : Fin 128) :
    k0_pay1 (F := Ideal) v (ix3 (0 : Fin 1) r (0 : Fin 1)) = Ideal.sqrt (v (ix3 (0 : Fin 1) r (0 : Fin 1))) := by
  unfold k0_pay1
  refine (shapeCast_ab_1ab_apply _ _ (0 : Fin 1) r (0 : Fin 1)).trans ?_
  exact congrArg Ideal.sqrt (shapeCast_1ab_ab_apply v _ r (0 : Fin 1))

/-- The running minimum at keypoint `r`: what the block held, or the tile's least expanded squared distance. -/
theorem running_min_apply (x0 : Vec Ideal S1x3x128 .f32) (x1 : Vec Ideal S1x3x8192 .f32) (acc : Vec Ideal S1x128x1 .f32)
    (r : Fin 128) :
    k0_pay3 (F := Ideal) x0 x1 acc (ix3 (0 : Fin 1) r (0 : Fin 1))
      = min (acc (ix3 (0 : Fin 1) r (0 : Fin 1)))
          (tileMin (fun c => x0 (ix3 (0 : Fin 1) c r)) (fun n c => x1 (ix3 (0 : Fin 1) c n))) := by
  unfold k0_pay3
  refine (shapeCast_ab_1ab_apply _ _ (0 : Fin 1) r (0 : Fin 1)).trans ?_
  refine (minimumf_apply _ _ _).trans ?_
  refine congrArg₂ min (shapeCast_1ab_ab_apply acc _ r (0 : Fin 1)) ?_
  refine (Cert.LibColumn.shapeCast_a_a1_apply _ _ r (0 : Fin 1)).trans ?_
  refine (rowMin_apply _ _ _ _ r).trans ?_
  unfold tileMin sqDistExpanded
  refine Finset.fold_congr fun n _ => ?_
  refine (maximumf_apply _ _ _).trans ?_
  refine congrArg₂ max ?_ rfl
  refine (subf_apply _ _ _).trans ?_
  refine congrArg₂ (fun a b : EReal => a - b) ?_ ?_
  · refine (addf_apply _ _ _).trans ?_
    refine congrArg₂ (fun a b : EReal => a + b) ?_ ?_
    · refine (Cert.LibColumn.broadcastTo_a1_ab_apply _ _ r n).trans ?_
      refine (transpose_ix2_apply _ _ r (0 : Fin 1)).trans ?_
      refine (shapeCast_a_1a_apply _ _ (0 : Fin 1) r).trans ?_
      refine (colSum_apply _ _ _ _ r).trans ?_
      refine Finset.sum_congr rfl fun c _ => ?_
      refine (mulf_apply _ _ _).trans ?_
      exact congrArg₂ (fun a b : EReal => a * b) (shapeCast_1ab_ab_apply x0 _ c r) (shapeCast_1ab_ab_apply x0 _ c r)
    · refine (broadcastTo_1b_ab_apply _ _ r n).trans ?_
      refine (shapeCast_a_1a_apply _ _ (0 : Fin 1) n).trans ?_
      refine (colSum_apply _ _ _ _ n).trans ?_
      refine Finset.sum_congr rfl fun c _ => ?_
      refine (mulf_apply _ _ _).trans ?_
      exact congrArg₂ (fun a b : EReal => a * b) (shapeCast_1ab_ab_apply x1 _ c n) (shapeCast_1ab_ab_apply x1 _ c n)
  · refine (mulf_apply _ _ _).trans ?_
    refine congrArg₂ (fun a b : EReal => a * b) rfl ?_
    refine (Cert.LibColCol.matmul_zero_colCol_apply _ rfl rfl rfl rfl rfl rfl _ _ _ r n).trans ?_
    refine Finset.sum_congr rfl fun c _ => ?_
    exact congrArg₂ (fun a b : EReal => a * b) (shapeCast_1ab_ab_apply x0 _ c r) (shapeCast_1ab_ab_apply x1 _ c n)

end Cert.KernelIdeal.Payload

end
-- ==== Proof.Result.lean ====
/-
  What the kernel's program computes, over the extended reals.

  The grid is 16 batches by 2 tiles of the cloud; point `t` is batch `t / 2`, tile `t % 2`. Its keypoint block is
  the `[3, 128]` matrix of batch `t / 2`, its cloud block columns `8192·(t % 2) …` of that batch's `[3, 16384]` matrix,
  its output block the column `[128, 1]` of that batch, which stays in place over the two tiles and is written back
  after the second. So after the second tile the block holds, at keypoint `r`, the square root of the minimum over
  the two tiles (from `+∞`) of the tile's least expanded squared distance: `kernelAt` of the keypoint and the batch's
  cloud (`block_entry`). The sixteen written-back blocks tile the `[16, 128, 1]` result array (`final`), and the
  program's last lines reshape it to `[16, 128]` and take its mean (`run`).
-/
import proofs.«113692_j51462298141282_2_alg».proof.Proof.Gen.KernelIdeal.Frame
import proofs.«113692_j51462298141282_2_alg».proof.Proof.Cases
import proofs.«113692_j51462298141282_2_alg».proof.Proof.Payload
import proofs.«113692_j51462298141282_2_alg».proof.Proof.Target
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.Nearest Idealize.ShloMosaic.ValueIdx

variable (m : (ℓ : Loc nD τ sig) → Buf (Elt Ideal) ℓ) (ρ : Dev nD → PrngReg)

/-- The printed index maps, decided once over the 32 grid points: batch `t / 2` on the leading axis of all three
    windows, the cloud's tile `t % 2` on its last axis, zero elsewhere. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = t.val % 2
    ∧ win0_2.index t (0 : Fin 3) = t.val / 2 ∧ win0_2.index t (1 : Fin 3) = 0 ∧ win0_2.index t (2 : Fin 3) = 0 :=
  (by decide +kernel : ∀ t : Fin grid0.N, _)

/-- The keypoint block at point `t`: coordinate `cc` of keypoint `r` of batch `t / 2`. -/
theorem keypoint_block (c : Dev nD) (t : Fin cfg0.N) (b : Fin 16) (hb : b.val = t.val / 2) (cc : Fin 3) (r : Fin 128) :
    (iblk m c 0 t : Vec Ideal S1x3x128 .f32) (ix3 (0 : Fin 1) cc r)
      = m ((c : Thread nD τ).loc main_arg0) (ix3 b cc r) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = b.val; rw [e0, hb]; omega
  | ⟨1, _⟩ => show win0_0.index t (1 : Fin 3) * 3 + 1 * cc.val = cc.val; rw [e1]; omega
  | ⟨2, _⟩ => show win0_0.index t (2 : Fin 3) * 128 + 1 * r.val = r.val; rw [e2]; omega

/-- The cloud block at point `t`: coordinate `cc` of cloud point `8192·(t % 2) + n` of batch `t / 2`. -/
theorem cloud_block (c : Dev nD) (t : Fin cfg0.N) (b : Fin 16) (hb : b.val = t.val / 2) (cc : Fin 3) (n : Fin 8192)
    (q : Fin 16384) (hq : q.val = 8192 * (t.val % 2) + n.val) :
    (iblk m c 1 t : Vec Ideal S1x3x8192 .f32) (ix3 (0 : Fin 1) cc n)
      = m ((c : Thread nD τ).loc main_arg1) (ix3 b cc q) := by
  obtain ⟨-, -, -, e0, e1, e2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = b.val; rw [e0, hb]; omega
  | ⟨1, _⟩ => show win0_1.index t (1 : Fin 3) * 3 + 1 * cc.val = cc.val; rw [e1]; omega
  | ⟨2, _⟩ => show win0_1.index t (2 : Fin 3) * 8192 + 1 * n.val = q.val; rw [e2, hq]; omega

/-- Over any four blocks: the reset value, the running minimum over the first tile and over the second, then the
    square root, read at keypoint `r`. -/
theorem two_tiles_entry (x0 : Vec Ideal S1x3x128 .f32) (x1 : Vec Ideal S1x3x8192 .f32) (x0' : Vec Ideal S1x3x128 .f32)
    (x1' : Vec Ideal S1x3x8192 .f32) (r : Fin 128) :
    k0_pay1 (F := Ideal) (k0_pay3 x0' x1' (k0_pay3 x0 x1 (k0_pay2 (F := Ideal)))) (ix3 (0 : Fin 1) r (0 : Fin 1))
      = Ideal.sqrt (min (min finf (tileMin (fun cc => x0 (ix3 (0 : Fin 1) cc r)) (fun n cc => x1 (ix3 (0 : Fin 1) cc n))))
          (tileMin (fun cc => x0' (ix3 (0 : Fin 1) cc r)) (fun n cc => x1' (ix3 (0 : Fin 1) cc n)))) := by
  rw [Payload.root_apply, Payload.running_min_apply, Payload.running_min_apply, Payload.reset_apply]

/-- After the second tile of a batch (an odd point) the block is the square root of the running minimum over both
    tiles, started from the reset value at the point before. -/
theorem block_after_second (c : Dev nD) (t : Fin cfg0.N) (h1 : t.val % 2 = 1) :
    outsAt0 m c t.val t.isLt
      = k0_pay1 (k0_pay3 (iblk m c 0 t) (iblk m c 1 t)
          (k0_pay3 (iblk m c 0 ⟨t.val - 1, lt_of_le_of_lt (Nat.sub_le _ _) t.isLt⟩)
            (iblk m c 1 ⟨t.val - 1, lt_of_le_of_lt (Nat.sub_le _ _) t.isLt⟩) (k0_pay2 (F := Ideal)))) := by
  have h0 : ¬ t.val % 2 = 0 := by omega
  rw [outsAt0_B m c t h0 h1, Steps.second_tile]
  rw [outsAt0_A m c ⟨t.val - 1, lt_of_le_of_lt (Nat.sub_le _ _) t.isLt⟩ (by dsimp only; omega) (by dsimp only; omega),
    Steps.first_tile]

/-- So its entry for keypoint `r` is `kernelAt` of that keypoint and the batch's cloud. -/
theorem block_entry (c : Dev nD) (t : Fin cfg0.N) (h1 : t.val % 2 = 1) (b : Fin 16) (hb : b.val = t.val / 2) (r : Fin 128) :
    outsAt0 m c t.val t.isLt (ix3 (0 : Fin 1) r (0 : Fin 1))
      = kernelAt (kpt (m ((c : Thread nD τ).loc main_arg0)) b r) (cloud (m ((c : Thread nD τ).loc main_arg1)) b) := by
  rw [block_after_second m c t h1]
  refine (two_tiles_entry (iblk m c 0 ⟨t.val - 1, lt_of_le_of_lt (Nat.sub_le _ _) t.isLt⟩)
    (iblk m c 1 ⟨t.val - 1, lt_of_le_of_lt (Nat.sub_le _ _) t.isLt⟩) (iblk m c 0 t) (iblk m c 1 t) r).trans ?_
  have hb' : b.val = (⟨t.val - 1, lt_of_le_of_lt (Nat.sub_le _ _) t.isLt⟩ : Fin cfg0.N).val / 2 := by
    dsimp only; omega
  have k0 : (fun cc => (iblk m c 0 ⟨t.val - 1, lt_of_le_of_lt (Nat.sub_le _ _) t.isLt⟩ : Vec Ideal S1x3x128 .f32) (ix3 (0 : Fin 1) cc r))
      = kpt (m ((c : Thread nD τ).loc main_arg0)) b r :=
    funext fun cc => keypoint_block m c _ b hb' cc r
  have k1 : (fun cc => (iblk m c 0 t : Vec Ideal S1x3x128 .f32) (ix3 (0 : Fin 1) cc r))
      = kpt (m ((c : Thread nD τ).loc main_arg0)) b r :=
    funext fun cc => keypoint_block m c t b hb cc r
  have p0 : (fun n cc => (iblk m c 1 ⟨t.val - 1, lt_of_le_of_lt (Nat.sub_le _ _) t.isLt⟩ : Vec Ideal S1x3x8192 .f32) (ix3 (0 : Fin 1) cc n))
      = fun n => cloud (m ((c : Thread nD τ).loc main_arg1)) b (tile0 n) :=
    funext fun n => funext fun cc => cloud_block m c _ b hb' cc n (tile0 n) (by dsimp only; omega)
  have p1 : (fun n cc => (iblk m c 1 t : Vec Ideal S1x3x8192 .f32) (ix3 (0 : Fin 1) cc n))
      = fun n => cloud (m ((c : Thread nD τ).loc main_arg1)) b (tile1 n) :=
    funext fun n => funext fun cc => cloud_block m c t b hb cc n (tile1 n) (by dsimp only; omega)
  unfold kernelAt
  exact congrArg Ideal.sqrt (congr (congrArg min (congrArg (min finf) (congr (congrArg tileMin k0) p0)))
    (congr (congrArg tileMin k1) p1))

/-- The result array of the kernel's call: entry `(b, r, 0)` is `kernelAt` of keypoint `r` of batch `b` and that batch's
    cloud. -/
def outArr (c : Dev nD) : Buf (Elt Ideal) ((c : Thread nD τ).loc main_v0) :=
  fun i : S16x128x1.Idx => kernelAt (kpt (m ((c : Thread nD τ).loc main_arg0)) (i 0) (i 1))
    (cloud (m ((c : Thread nD τ).loc main_arg1)) (i 0))

/-- What an odd point writes back is its batch's column of `outArr`. -/
theorem flushed_eq (c : Dev nD) (t : Fin cfg0.N) (hf : (cfg0.win 2).flush t = true) :
    (dats m 0 c).flushed 2 t = ((cfg0.win 2).blk t).view.read (Elt Ideal) (outArr m c) := by
  have h1 : t.val % 2 = 1 := (flush0_2 t).mp hf
  have hN : t.val < 32 := lt_of_lt_of_eq t.isLt (show cfg0.N = 32 from N_0)
  obtain ⟨-, -, -, -, -, -, e0, e1, e2⟩ := idx_facts t
  show (cfg0.win 2).cut (grid0.coords t) ((dats m 0 c).after 2 t) = _
  rw [after0_2]
  refine funext fun (y : S1x128x1.Idx) => ?_
  obtain ⟨u, r, v, rfl⟩ : ∃ (u : Fin 1) (r : Fin 128) (v : Fin 1), y = ix3 u r v := ⟨y 0, y 1, y 2, eq_ix3 y⟩
  obtain rfl : u = 0 := Subsingleton.elim _ _
  obtain rfl : v = 0 := Subsingleton.elim _ _
  show outsAt0 m c t.val t.isLt (ix3 (0 : Fin 1) r (0 : Fin 1)) = outArr m c (((cfg0.win 2).blk t).view.emb (ix3 (0 : Fin 1) r (0 : Fin 1)))
  have he : ((cfg0.win 2).blk t).view.emb (ix3 (0 : Fin 1) r (0 : Fin 1))
      = (ix3 (⟨t.val / 2, by omega⟩ : Fin 16) r (0 : Fin 1) : S16x128x1.Idx) := by
    funext a; apply Fin.ext
    match a with
    | ⟨0, _⟩ => show win0_2.index t (0 : Fin 3) * 1 + 1 * 0 = t.val / 2; rw [e0]; omega
    | ⟨1, _⟩ => show win0_2.index t (1 : Fin 3) * 128 + 1 * r.val = r.val; rw [e1]; omega
    | ⟨2, _⟩ => show win0_2.index t (2 : Fin 3) * 1 + 1 * 0 = 0; rw [e2]
  rw [he, block_entry m c t h1 ⟨t.val / 2, by omega⟩ rfl r]
  rfl

/-- An index of the result array is in point `t`'s block iff each coordinate is in the block's range on its axis. -/
theorem mem_blk (t : Fin cfg0.N) (i : S16x128x1.Idx) :
    i ∈ ((cfg0.win 2).blk t).view.set ↔ ∀ a : Fin 3, win0_2.index t a * S1x128x1.size a ≤ (i a).val
      ∧ (i a).val < win0_2.index t a * S1x128x1.size a + S1x128x1.size a := by
  show i ∈ ((View.whole main_v0).slice (win0_2.rect t)).set ↔ _
  rw [View.set_slice_whole, Rect.mem_set_unit]
  exact Iff.rfl

/-- Every entry `(b, r, 0)` is in the block the second tile of batch `b` writes back. -/
theorem covered (i : S16x128x1.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hi2 : (i 2).val < 1 := (i 2).isLt
  have hN : cfg0.N = 32 := N_0
  have ht : 2 * (i 0).val + 1 < cfg0.N := by rw [hN]; omega
  refine ⟨⟨2 * (i 0).val + 1, ht⟩, (flush0_2 _).mpr (by dsimp only; omega), ?_⟩
  rw [mem_blk]
  obtain ⟨-, -, -, -, -, -, e0, e1, e2⟩ := idx_facts ⟨2 * (i 0).val + 1, ht⟩
  dsimp only at e0 e1 e2
  intro a
  match a with
  | ⟨0, _⟩ =>
    show win0_2.index ⟨2 * (i 0).val + 1, ht⟩ (0 : Fin 3) * 1 ≤ (i 0).val
      ∧ (i 0).val < win0_2.index ⟨2 * (i 0).val + 1, ht⟩ (0 : Fin 3) * 1 + 1
    rw [e0]; omega
  | ⟨1, _⟩ =>
    show win0_2.index ⟨2 * (i 0).val + 1, ht⟩ (1 : Fin 3) * 128 ≤ (i 1).val
      ∧ (i 1).val < win0_2.index ⟨2 * (i 0).val + 1, ht⟩ (1 : Fin 3) * 128 + 128
    rw [e1]; omega
  | ⟨2, _⟩ =>
    show win0_2.index ⟨2 * (i 0).val + 1, ht⟩ (2 : Fin 3) * 1 ≤ (i 2).val
      ∧ (i 2).val < win0_2.index ⟨2 * (i 0).val + 1, ht⟩ (2 : Fin 3) * 1 + 1
    rw [e2]; omega

/-- The result array after the call. -/
theorem final (c : Dev nD) : (dats m 0 c).arrAt 2 cfg0.N = outArr m c :=
  (dats m 0 c).arrAt_eq_of_cover 2 (outArr m c) (flushed_eq m c) covered

/-- The per-keypoint array the program's last lines average. -/
def minima (c : Dev nD) : (⟨2, ![16, 128]⟩ : Shape).Idx → EReal :=
  fun j => kernelAt (kpt (m ((c : Thread nD τ).loc main_arg0)) (j 0) (j 1)) (cloud (m ((c : Thread nD τ).loc main_arg1)) (j 0))

/-- The program's last two lines on any `[16, 128]` array: the sum of all its entries from zero, divided by 2048. -/
theorem mean_tail (Y : (⟨S16x128, .f32⟩ : BufTy).Contents (Elt Ideal)) (x : S_.Idx) :
    Host.divf (F := Ideal) (Host.reduceAdd (F := Ideal) Y (constant (F := Ideal) S_ .f32 0x00000000#32) reducesTo_S16x128_S_d0_1 h_S_)
      (constant (F := Ideal) S_ .f32 0x45000000#32) x = meanOf Y := by
  show Ideal.div (Host.reduceAdd (F := Ideal) Y (constant (F := Ideal) S_ .f32 0x00000000#32) reducesTo_S16x128_S_d0_1 h_S_ x)
    (Ideal.ofBits .f32 0x45000000#32) = Ideal.div (fzero + ∑ j, Y j) (Ideal.ofBits .f32 0x45000000#32)
  refine congrArg (fun z => Ideal.div z (Ideal.ofBits .f32 0x45000000#32)) ?_
  simp only [Host.reduceAdd, Ideal.hostReduceAdd_def]
  exact Ideal.hostReduceAdd_total reducesTo_S16x128_S_d0_1 (fun b => b.elim0) Y _ x

/-- The result array with its trailing unit axis dropped is the per-keypoint array. -/
theorem reshaped (c : Dev nD) : shapeCast S16x128 (outArr m c) shapeCasts_S16x128x1_S16x128 = minima m c := by
  funext j
  obtain ⟨b, r, rfl⟩ : ∃ (b : Fin 16) (r : Fin 128), j = ix2 b r := ⟨j 0, j 1, eq_ix2 j⟩
  refine (shapeCast_apply (outArr m c) shapeCasts_S16x128x1_S16x128 (ix2 b r) (ix3 b r (0 : Fin 1)) ?_).trans rfl
  show ((⟨3, ![16, 128, 1]⟩ : Shape).rowMajor (ix3 b r (0 : Fin 1))).val = ((⟨2, ![16, 128]⟩ : Shape).rowMajor (ix2 b r)).val
  rw [Shape.rowMajor_val_three, Shape.rowMajor_val_two]
  show (b.val * 128 + r.val) * 1 + 0 = b.val * 128 + r.val
  omega

/-- What the lines after the call leave in the program's result. -/
theorem tail_eq (c : Dev nD) :
    Pipeline.afterTail₀ cfgs (dats m) 0 (V0 m) [hostOps1] c main_v3 = fun _ => meanOf (minima m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v0)
      = outArr m c :=
    (Pipeline.withArrays_arr spec0 launch0.win.arr_inj c _ _ 2).trans (final m c)
  rw [hw]
  funext x
  refine (mean_tail (shapeCast S16x128 (outArr m c) shapeCasts_S16x128x1_S16x128) x).trans ?_
  rw [reshaped]

/-- The run of the kernel's program, read: its result is the mean of the per-keypoint array, its arguments are
    unchanged. -/
theorem run : θ_run defs (onTc (τ := τ) (main (F := Ideal))) ⟨m, fun _ => 0, ρ⟩ fun r => ∀ c : Dev nD,
      r.2.mem ((c : Thread nD τ).loc main_v3) = (fun _ => meanOf (minima m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Result

end
-- ==== Proof.lean ====
/-
  The mean distance from each keypoint to its nearest cloud point: the kernel's program and the reference agree over the
  extended reals on finite inputs.

  For batch `b`, keypoint `r` (three coordinates `k_c`) and the batch's 16384 cloud points `p_n`, the reference takes
  `min_n √(∑_c (k_c − p_{n,c})²)` and averages the 16·128 minima. The kernel's program expands the square,
  `∑_c k_c² + ∑_c p_{n,c}² − 2·∑_c k_c·p_{n,c}` (the cross term as a matrix product), clamps it at zero, takes the minimum
  tile by tile (two tiles of 8192 cloud points, from `+∞`), and takes ONE square root after the minimum; then the same
  average. The two agree because, for real coordinates, the expansion is the binomial identity and a sum of squares is
  nonnegative (so the clamp does nothing), the minimum over the cloud is the minimum of the two tiles' minima, and the
  square root is monotone, so it commutes with a minimum of finitely many values. Real coordinates are what the
  precondition gives: at an infinite coordinate the expansion meets `∞ − ∞` and the identity fails.

  The pieces: the common value (Nearest, Target); the reference's result read operation by operation (RefSide); the
  body's stored values read at an entry (Payload) and what each grid step leaves in the output block (Cases); the result
  array of the call and the program's result (Result); finite inputs are real (Finite). Here: the three frames, the
  idealization (the kernel's text is read as it stands: nothing to state), and the equality of the two results.
-/
import proofs.«113692_j51462298141282_2_alg».proof.Defs
import proofs.«113692_j51462298141282_2_alg».proof.Proof.Gen.Kernel
import proofs.«113692_j51462298141282_2_alg».proof.Proof.Gen.Kernel.Frame
import proofs.«113692_j51462298141282_2_alg».proof.Proof.Gen.KernelIdeal
import proofs.«113692_j51462298141282_2_alg».proof.Proof.Gen.KernelIdeal.Frame
import proofs.«113692_j51462298141282_2_alg».proof.Proof.Gen.ReferenceIdeal
import proofs.«113692_j51462298141282_2_alg».proof.Proof.Gen.ReferenceIdeal.Run
import proofs.«113692_j51462298141282_2_alg».proof.Proof.Gen.ReferenceIdeal.Read
import proofs.«113692_j51462298141282_2_alg».proof.Proof.Gen.Pre_finite_inputs
import proofs.«113692_j51462298141282_2_alg».proof.Proof.Nearest
import proofs.«113692_j51462298141282_2_alg».proof.Proof.Target
import proofs.«113692_j51462298141282_2_alg».proof.Proof.Finite
import proofs.«113692_j51462298141282_2_alg».proof.Proof.RefSide
import proofs.«113692_j51462298141282_2_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals. -/
theorem preserves : Cert.preserves_Kernel_KernelIdeal := trivial

/-- Both programs end at the mean of a `[16, 128]` array: the kernel's of `kernelAt` (expanded squares, tile by tile, one
    square root), the reference's of `nearestAt` (the least distance). On real coordinates the two arrays are equal entry
    by entry. -/
theorem algebraic : Cert.algebraic_KernelIdeal_ReferenceIdeal := by
  intro m ρ m' ρ' hpre hagree
  refine ⟨fun c => fun _ => Cert.Nearest.meanOf (Cert.KernelIdeal.Result.minima m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefSide.result_eq, (hagree c).1, (hagree c).2]
  obtain ⟨hk, hp⟩ := Cert.Finite.real_of_finite_inputs _ _ (hpre c)
  refine funext fun _ => congrArg Cert.Nearest.meanOf (funext fun j => ?_)
  exact (Cert.Nearest.kernelAt_eq_nearestAt _ _ (fun cc => hk _) (fun n cc => hp _)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
